-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x128 : Shape := ⟨2, ![1024, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S8192x1024 .f32) (main_arg1 : FVec F S1024x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩
abbrev S8192x8192 : Shape := ⟨2, ![8192, 8192]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .bf16⟩
  | .hbm, ⟨3, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S8192x128, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v2 : BitVec 32 := Scalar.muli arg1 c1024_i32
  v2
def k1_off1 (i : grid1.Coords) : Fin 2 → Nat :=
  let arg1 : BitVec 32 := BitVec.ofNat 32 (i 1).val
  let c1024_i32 : BitVec 32 := 1024#32
  let v2 : BitVec 32 := Scalar.muli arg1 c1024_i32
  let v3 : BitVec 32 := v2
  let v4 : Index := Scalar.indexCast v3
  let c0_1 : Index := 0#32
  ![v4.toNat, 0]
def k1_cond1 (i : grid1.Coords) : BitVec 1 :=
  let arg0 : BitVec 32 := BitVec.ofNat 32 (i 0).val
  let arg1 : BitVec 32 := BitVec.ofNat 32 (i 1).val
  let v23 : BitVec 1 := Scalar.cmpi .eq arg0 arg1
  let v24 : BitVec 32 := Scalar.extui v23
  let c0_i32 : BitVec 32 := 0#32
  let v25 : BitVec 1 := Scalar.cmpi .ne v24 c0_i32
  v25

def k1_cond2 (i : grid1.Coords) : BitVec 1 :=
  let arg0 : BitVec 32 := BitVec.ofNat 32 (i 0).val
  let arg1 : BitVec 32 := BitVec.ofNat 32 (i 1).val
  let v26 : BitVec 1 := Scalar.cmpi .ne arg0 arg1
  let v27 : BitVec 32 := Scalar.extui v26
  let c0_i32_5 : BitVec 32 := 0#32
  let v28 : BitVec 1 := Scalar.cmpi .ne v27 c0_i32_5
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  dot_S1024x1024_S1024x128_S1024x128_1_0_0_1_n_n_wf : DotDims.WF S1024x1024 S1024x128 S1024x128 [1] [0] [0] [1] [] []
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .bf16 = 32 ∨ (Rect.block (s := S8192x128) S1024x128.size (cc0_transform_2 i) (hinb0_2 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S128x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Proj.lean ====
/-
  The projection region: P = E · W, one block of 1024 rows of E per grid point, W whole at every point.

  Stated at a parameter V, the contents of the core's buffers when the region is entered. At grid point t the body
  finds the t-th block of 1024 rows of E in its first buffer and all of W in its second, whether or not a transfer
  brought them there at that point, and leaves in its third buffer one whole-rectangle store: the product of the two,
  a function of those two blocks alone. The region's invariant is the untouched rest of the core's scoped memory.
-/
import proofs.«179739_j25958782337133_2_alg».proof.Proof.Gen.Kernel.Launch
import proofs.«179739_j25958782337133_2_alg».proof.Proof.Gen.Kernel.Skeleton
import proofs.«179739_j25958782337133_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of E: the buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W: fetched once, at the first point; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each load and the store cover a whole buffer -/

abbrev rE : Rect S1024x1024 := Rect.unit (s := S1024x1024) ![0, 0] S1024x1024.size inb_S1024x1024_S1024x1024_0_0
abbrev rW : Rect S1024x128 := Rect.unit (s := S1024x128) ![0, 0] S1024x128.size inb_S1024x128_S1024x128_0_0

/-- What the body leaves in the output buffer: its one store, of the product of the two input blocks. -/
def out0_2 (x0 : Vec F S1024x1024 .f32) (x1 : Vec F S1024x128 .f32) : Vec F S1024x128 .bf16 :=
  View.canon [⟨rW, k0_pay1 (View.ld x0 rE) (View.ld x1 rW)⟩]

/-- The store's rectangle is the whole buffer. -/
theorem cover0_2 (p0 : Vec F S1024x128 .bf16) (y : S1024x128.Idx) :
    ∃ pc ∈ ([⟨rW, p0⟩] : List (View.Piece (Elt F) S1024x128 .bf16)), y ∈ pc.1.set :=
  View.cover_of_tiled [⟨rW, p0⟩] S1024x128.size (by rfl) y

/-! ## The body's triple -/

set_option maxHeartbeats 1000000 in
/-- On whole buffers, the inputs' at read contents x0, x1 and the output's at anything, the body runs to the
    continuation with the inputs' as they were and the output's at out0_2 of them. -/
theorem sound_kernel0 (c : Dev nD) (E : Set ℕ) (i : grid0.Coords) (arg1 : Memref sig .tc .vmem S1024x1024 .f32) (harg1 : arg1.IsWhole)
    (arg2 : Memref sig .tc .vmem S1024x128 .f32) (harg2 : arg2.IsWhole) (arg3 : Memref sig .tc .vmem S1024x128 .bf16) (harg3 : arg3.IsWhole)
    (x0 : Vec F S1024x1024 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point t the inputs' buffers at their blocks and the output's
    at the product of those blocks; the invariant the untouched scoped rest and the generator register; nothing owed;
    every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Pair.lean ====
/-
  The pairwise-distance region: one 1024 × 1024 tile of the distance matrix per grid point (i, j).

  Stated at a parameter V, the contents of the core's buffers when the region is entered. Two of the region's windows
  read ONE array, the projected points: the first holds the i-th block of 1024 rows, the second the whole array, of
  which the body itself cuts rows 1024·j … 1024·j + 1023. At a point on the diagonal of the grid (i = j) the body
  stores the tile with a constant added where the global row and column agree; off the diagonal it stores the plain
  tile. Exactly one of the two stores happens at every point, each through the whole output buffer, so what the
  buffer holds afterwards is a function of the two input buffers and the point alone.
-/
import proofs.«179739_j25958782337133_2_alg».proof.Proof.Gen.Kernel.Launch
import proofs.«179739_j25958782337133_2_alg».proof.Proof.Gen.Kernel.Skeleton
import proofs.«179739_j25958782337133_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The i-th block of rows: fetched when i changes, held in between. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole array: fetched once, at the first point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The whole block of rows, -/
abbrev rP : Rect S1024x128 := Rect.unit (s := S1024x128) ![0, 0] S1024x128.size inb_S1024x128_S1024x128_0_0
/-- rows 1024·j … of the whole array, -/
abbrev rS (i : grid1.Coords) : Rect S8192x128 := Rect.unit (s := S8192x128) (k1_off1 i) S1024x128.size (k1_off1_inb i)
/-- and the whole output tile. -/
abbrev rO : Rect S1024x1024 := Rect.unit (s := S1024x1024) ![0, 0] S1024x1024.size inb_S1024x1024_S1024x1024_0_0

/-! ## What the body leaves in the output buffer -/

/-- On the grid's diagonal: the tile with the constant added on its own diagonal. -/
def outDiag (i : grid1.Coords) (x0 : Vec F S1024x128 .bf16) (x1 : Vec F S8192x128 .bf16) : Vec F S1024x1024 .f32 :=
  View.canon [⟨rO, k1_pay2 i (View.ld x0 rP) (View.ld x1 (rS i))⟩]
/-- Off it: the plain tile. -/
def outOff (i : grid1.Coords) (x0 : Vec F S1024x128 .bf16) (x1 : Vec F S8192x128 .bf16) : Vec F S1024x1024 .f32 :=
  View.canon [⟨rO, k1_pay1 (View.ld x0 rP) (View.ld x1 (rS i))⟩]
/-- Either way, by the point. -/
def out1_2 (i : grid1.Coords) (x0 : Vec F S1024x128 .bf16) (x1 : Vec F S8192x128 .bf16) : Vec F S1024x1024 .f32 :=
  if k1_cond1 i = 1#1 then outDiag i x0 x1 else outOff i x0 x1

/-- The store's rectangle is the whole buffer. -/
theorem cover1_2 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- At a point where the second condition is the negation of the first (every grid point: i ≠ j is not i = j), on whole
    buffers, the inputs' at read contents x0, x1 and the output's at anything, the body runs to the continuation with
    the inputs' as they were and the output's at out1_2 of them. -/
theorem sound_kernel1 (c : Dev nD) (E : Set ℕ) (i : grid1.Coords) (arg2 : Memref sig .tc .vmem S1024x128 .bf16) (harg2 : arg2.IsWhole)
    (arg3 : Memref sig .tc .vmem S8192x128 .bf16) (harg3 : arg3.IsWhole) (arg4 : Memref sig .tc .vmem S1024x1024 .f32) (harg4 : arg4.IsWhole)
    (hx : k1_cond2 i = 1#1 ↔ ¬ k1_cond1 i = 1#1)
    (x0 : Vec F S1024x128 .bf16) (x1 : Vec F S8192x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 i x0 x1)) -∗ K ⟨⟩))
      ⊢ wp frame (wpE (defs₀ (F := F)) Variants.none c none) E (cc1__dist_kernel i arg2 harg2 arg3 harg3 arg4 harg4) K := by
  simp only [cc1__dist_kernel_eq_skeleton]; unfold cc1__dist_kernel_skel
  unfold owns
  by_cases h1 : k1_cond1 i = 1#1
  · have h2 : ¬ k1_cond2 i = 1#1 := fun h => (hx.mp h) h1
    iintro ⟨⟨%f0, %hf0, H0⟩, ⟨%f1, %hf1, H1⟩, ⟨%d2, %f2, -, H2⟩, Hk⟩
    subst hf0; subst hf1
    sl_exec (disch := first | exact h1 | exact h2)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    rw [out1_2, if_pos h1]
    exact View.read_writes_eq_canon _ _ _ (cover1_2 _)
  · have h2 : k1_cond2 i = 1#1 := hx.mpr h1
    iintro ⟨⟨%f0, %hf0, H0⟩, ⟨%f1, %hf1, H1⟩, ⟨%d2, %f2, -, H2⟩, Hk⟩
    subst hf0; subst hf1
    sl_exec (disch := first | exact h1 | exact h2)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    rw [out1_2, if_neg h1]
    exact View.read_writes_eq_canon _ _ _ (cover1_2 _)

/-! ## The two conditions at a grid point: exactly one holds -/

theorem cond_excl : ∀ t : Fin cfg1.N, k1_cond2 (grid1.coords t) = 1#1 ↔ ¬ k1_cond1 (grid1.coords t) = 1#1 :=
  (by decide +kernel : ∀ t : Fin grid1.N, k1_cond2 (grid1.coords t) = 1#1 ↔ ¬ k1_cond1 (grid1.coords t) = 1#1)

/-! ## The proof data -/

/-- The arrays as the region finds them; after the body at point t the inputs' buffers at their blocks and the output's
    at the tile of those blocks; the invariant the untouched scoped rest and the generator register; nothing owed. The
    projected array is read through two windows: each holds one half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (cond_excl t) (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At a point that writes the window back, what the obligation asks of its buffer is what the body left there,
    idle or not. -/
theorem leavesExact_of_flush {c : Dev nD} (dat : Dat τ (Elt F) Unit ℕ (UR sig nD τ) ℕ cfg1 c) (w : Fin cfg1.W) (t : Fin cfg1.N)
    (hf : (cfg1.win w).flush t = true) :
    dat.leavesExact w t = owns (c : Thread nD τ) ((cfg1.win w).stage (cfg1.slots t w)) fullShare (dat.after w t) := by
  unfold Dat.leavesExact; rw [hf]; cases cfg1.idle w (cfg1.grid.coords t) <;> rfl

theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ (dat1 V c).leavesExact 2 t))
  rw [leavesExact_of_flush (dat1 V c) 2 t (flush1_2 t)]
  exact sound_body1 V c t

end Cert.Kernel.Hand

end
-- ==== Proof.LibSharedWindows.lean ====
/-
  Two input windows on one array.

  A pipeline's entry takes the buffers behind its windows' arrays, each held whole at the full share, and must produce
  one points-to per WINDOW at that window's share. When the map from windows to buffers is injective the two
  collections correspond term by term. Here it is injective except that one window w₂ names the buffer another window w₁
  already names: the buffer's full-share points-to is then cut into two shares, one per window, and at the exit
  the two are joined again. Stated over an abstract iterated separating conjunction, so that it applies to any
  pipeline configuration.
-/
import Idealize.ShloMosaic.Lib.Pipeline.Launch

noncomputable section

namespace Idealize.ShloMosaic.SharedWindows

open Idealize.SL Idealize.SL.BI
open scoped Idealize.SL.BI
open Idealize.SL.BI.BIBase Idealize.SL.BI.Laws Idealize.SL.ProofMode

variable {M : Type} [Idealize.SL.RA.URA M]
variable {I : Type} [Fintype I] [DecidableEq I] {J : Type} [DecidableEq J]

/-- The iterated conjunction over an image, when the map is injective on the index set. -/
theorem bigSep_image_of_injOn (s : Finset I) (r : I → J) (Ψ : J → sProp M)
    (hinj : ∀ x ∈ s, ∀ y ∈ s, r x = r y → x = y) :
    bigSep (s.image r) Ψ = bigSep s (fun i => Ψ (r i)) :=
  Finset.fold_image hinj

/-- The windows' image is unchanged by dropping a window whose buffer another window names. -/
theorem image_erase_dup (r : I → J) {w₁ w₂ : I} (hne : w₁ ≠ w₂) (hdup : r w₁ = r w₂) :
    Finset.univ.image r = (Finset.univ.erase w₂).image r := by
  ext b
  simp only [Finset.mem_image, Finset.mem_univ, true_and, Finset.mem_erase]
  constructor
  · rintro ⟨w, rfl⟩
    by_cases h : w = w₂
    · exact ⟨w₁, ⟨hne, trivial⟩, by rw [h, hdup]⟩
    · exact ⟨w, ⟨h, trivial⟩, rfl⟩
  · rintro ⟨w, -, rfl⟩; exact ⟨w, rfl⟩

/-- ENTRY and EXIT at once: the buffers behind the windows (Ψ over the image of r) are the per-window terms (Φ over
    all windows), when r is injective off the duplicate w₂, every other window's term is its buffer's, and the shared
    buffer's term is cut into the two windows' terms. -/
theorem buffers_iff_windows (r : I → J) (Ψ : J → sProp M) (Φ : I → sProp M) {w₁ w₂ : I} (hne : w₁ ≠ w₂) (hdup : r w₁ = r w₂)
    (hinj : ∀ x, x ≠ w₂ → ∀ y, y ≠ w₂ → r x = r y → x = y)
    (hΦ : ∀ w, w ≠ w₁ → w ≠ w₂ → Φ w = Ψ (r w))
    (hcut : Ψ (r w₁) ⊣⊢ iprop(Φ w₁ ∗ Φ w₂)) :
    bigSep (Finset.univ.image r) Ψ ⊣⊢ bigSep Finset.univ Φ := by
  have h1 : w₁ ∈ Finset.univ.erase w₂ := Finset.mem_erase.mpr ⟨hne, Finset.mem_univ _⟩
  rw [image_erase_dup r hne hdup,
    bigSep_image_of_injOn _ r Ψ (fun x hx y hy => hinj x (Finset.mem_erase.mp hx).1 y (Finset.mem_erase.mp hy).1),
    bigSep_erase h1, bigSep_erase (Finset.mem_univ w₂) (Φ := Φ), bigSep_erase h1 (Φ := Φ),
    bigSep_congr (Φ := fun i => Ψ (r i)) (Ψ := Φ) (s := (Finset.univ.erase w₂).erase w₁) (fun w hw => by
      have h := Finset.mem_erase.mp hw
      exact (hΦ w h.1 (Finset.mem_erase.mp h.2).1).symm)]
  exact (Laws.sep_congr_left hcut).trans (Laws.sep_assoc.trans Laws.sep_left_comm)

end Idealize.ShloMosaic.SharedWindows

end
-- ==== Proof.Kernel.Whole.lean ====
/-
  The whole program: the projection region, then the pairwise-distance region, on every core.

  Between the two regions the thread holds every unscoped buffer at a named valuation: the launch memory; then the
  same with the projected array at what the first region's write-backs leave; then that with the distance matrix at
  what the second region's write-backs leave. Each region takes its windows' arrays out of that collection at its
  entry and puts them back at its exit. The second region reads the projected array through two windows: the
  buffer's one points-to is cut into two half shares at the entry, one per window, and joined at the exit. The run
  ends with every unscoped buffer read against the last valuation, which gives both the argument arrays as launched
  and the result array as the fold of the second region's write-backs.
-/
import proofs.«179739_j25958782337133_2_alg».proof.Proof.Kernel.Proj
import proofs.«179739_j25958782337133_2_alg».proof.Proof.Kernel.Pair
import proofs.«179739_j25958782337133_2_alg».proof.Proof.LibSharedWindows

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection region: its arrays at what the pipeline leaves, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the distance region: the distance matrix at what the pipeline leaves, every other buffer as before. -/
def W2 (c : Dev nD) : Valuation τ sig (Elt F) :=
  Function.update (W1 m ρ c) main_v1 ((dat1 (V1 m ρ) c).arrAt 2 cfg1.N)
theorem W2_out (c : Dev nD) : W2 m ρ c (Proc.devRef .tc main_v1) = (dat1 (V1 m ρ) c).arrAt 2 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
theorem hF1 (c : Dev nD) : ∀ w : Fin cfg1.W, (dat1 (V1 m ρ) c).arrAt w cfg1.N = V2 m ρ c (Pipeline.arrRef spec1 w)
  | ⟨0, _⟩ => ((dat1 (V1 m ρ) c).arrAt_in 0 rfl _).trans ((A_eq1 (V1 m ρ) c 0).trans (W2_of_ne m ρ c main_v0 (by decide)).symm)
  | ⟨1, _⟩ => ((dat1 (V1 m ρ) c).arrAt_in 1 rfl _).trans ((A_eq1 (V1 m ρ) c 1).trans (W2_of_ne m ρ c main_v0 (by decide)).symm)
  | ⟨2, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)

/-- The arguments end as launched: neither region writes one. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The distance region's arrays among the core's unscoped buffers -/

/-- The buffers behind the distance region's windows, whole at the full share at contents Vv, are the region's arrays
    at contents Fa when Fa is what Vv has at each window's buffer: the output's points-to as it is, the projected
    array's cut into the two windows' halves. -/
theorem arrBufs_arrays1 (c : Dev nD) (dat : Dat τ (Elt F) Unit ℕ (UR sig nD τ) ℕ cfg1 c)
    (hq0 : dat.q 0 = fullShare.left) (hq1 : dat.q 1 = fullShare.right)
    (Vv : (b : Ref sig .tc) → Buf (Elt F) ((c : Thread nD τ).loc b))
    (Fa : (w : Fin cfg1.W) → Buf (Elt F) ((cfg1.win w).arr.view.loc (c : Thread nD τ)))
    (hF : ∀ w, Fa w = Vv (Pipeline.arrRef spec1 w)) :
    (Pipeline.arrBufs (Ix := Unit) (Name := ℕ) (U := UR sig nD τ) (Lvl := ℕ) spec1 c Vv : sProp 𝕄) ⊣⊢ dat.arrays Fa := by
  unfold Pipeline.arrBufs Pipeline.Dat.arrays
  refine SharedWindows.buffers_iff_windows (Pipeline.arrRef spec1) _ _ (w₁ := (0 : Fin 3)) (w₂ := (1 : Fin 3)) (by decide) rfl (by decide) ?_ ?_
  · intro w h0 h1
    obtain rfl : w = 2 := by
      rcases w with ⟨_ | _ | _ | n, h⟩
      · exact absurd rfl h0
      · exact absurd rfl h1
      · rfl
      · omega
    rw [(arr_whole1 2).set_eq_univ, hF 2]; rfl
  · rw [(arr_whole1 0).set_eq_univ, hF 0, hF 1,
      show dat.share 0 = fullShare.left from hq0, show dat.share 1 = fullShare.right from hq1]
    exact pointsTo_share (PosShare.mem_left_op_right fullShare)

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owes apart. -/
abbrev Tₙ (c : Dev nD) : sProp 𝕄 := iprop(StableHlo.held (c : Thread nD τ) (Pipeline.ucRefs τ sig) (W2 m ρ c) ∗ ∃ r, prngReg c r)

/-! ## The distance region's entry and exit, the buffers' part -/

set_option backward.isDefEq.respectTransparency.types false in
theorem entry1 (c : Dev nD) :
    (StableHlo.held (c : Thread nD τ) (Pipeline.ucRefs τ sig) (W1 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V1 m ρ c)) := by
  rw [← Pipeline.unscopedBufs_held (Ix := Unit) (Name := ℕ) (U := UR sig nD τ) (Lvl := ℕ) c (W1 m ρ c),
    Pipeline.unscopedBufs_split₀ (Pipeline.pin (pcfgs (F := F)) adm) 1 winFacts₀1.arr_unscoped c (V1 m ρ c)]
  exact sep_mono (arrBufs_arrays1 c (pdats m ρ 1 c) rfl rfl (V1 m ρ c) ((pdats m ρ 1 c).arrAt · 0) (fun _ => rfl)).1 .rfl

set_option backward.isDefEq.respectTransparency.types false in
theorem exit1 (c : Dev nD) :
    iprop((pdats m ρ 1 c).arrays ((pdats m ρ 1 c).arrAt · cfg1.N)
          ∗ Pipeline.unscopedRest (Ix := Unit) (Name := ℕ) (U := UR sig nD τ) (Lvl := ℕ) spec1 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ (Pipeline.pin (pcfgs (F := F)) adm) 1 winFacts₀1.arr_unscoped c (V2 m ρ c)]
  refine sep_mono (arrBufs_arrays1 c (pdats m ρ 1 c) rfl rfl (V2 m ρ c) ((pdats m ρ 1 c).arrAt · cfg1.N) (hF1 m ρ c)).2 (Entails.of_eq ?_)
  unfold Pipeline.unscopedRest
  exact bigSep_congr fun b hb => by rw [hrest1 m ρ c b (Finset.mem_sdiff.mp hb).2]

/-! ## The regions as segments -/

set_option backward.isDefEq.respectTransparency.types false in
/-- The projection region: entered from every unscoped buffer at the launch contents, left at the contents after it.
    Its arrays are distinct buffers: taken out of the unscoped buffers and put back one for one. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from the contents after the projection, left at the last contents. Two of its windows
    name the projected array: the entry cuts that buffer's share in two, the exit joins the halves (entry1, exit1). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c); isplitl [Ha] <;> iassumption
      iexact HY
    unfold Pipeline.Dat.owesAt Pipeline.owesWithin
    icases HO with ⟨%W, -, HO⟩; iexists W; iexact HO

/-! ## The program as its two regions, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- Every weakly fair execution from memory m terminates without a fault, and every unscoped buffer of every core
    ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m ρ c),
     (h c _ (mem_uc main_arg1 (by decide))).trans (W2_main_arg1 m ρ c)⟩) (run_all m ρ)

/-- The run with the result named: the distance matrix ends at the fold of the distance region's write-backs over the
    contents the projection region left; the argument arrays as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W2_out m ρ c),
     (h c _ (mem_uc main_arg0 (by decide))).trans (W2_main_arg0 m ρ c),
     (h c _ (mem_uc main_arg1 (by decide))).trans (W2_main_arg1 m ρ c)⟩) (run_all m ρ)

/-- The projected array as the distance region finds it: the fold of the projection region's write-backs. -/
theorem V1_projected (c : Dev nD) : V1 m ρ c main_v0 = (dat0 (V0 m ρ) c).arrAt 2 cfg0.N := W1_arr m ρ c 2

end Cert.Kernel.Hand

end
-- ==== Proof.KernelIdeal.Proj.lean ====
/-
  The projection region: P = E · W, one block of 1024 rows of E per grid point, W whole at every point.

  Stated at a parameter V, the contents of the core's buffers when the region is entered. At grid point t the body
  finds the t-th block of 1024 rows of E in its first buffer and all of W in its second, whether or not a transfer
  brought them there at that point, and leaves in its third buffer one whole-rectangle store: the product of the two,
  a function of those two blocks alone. The region's invariant is the untouched rest of the core's scoped memory.
-/
import proofs.«179739_j25958782337133_2_alg».proof.Proof.Gen.KernelIdeal.Launch
import proofs.«179739_j25958782337133_2_alg».proof.Proof.Gen.KernelIdeal.Skeleton
import proofs.«179739_j25958782337133_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of E: the buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- W: fetched once, at the first point; its block index never moves, so the buffer holds it at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's rectangles: each load and the store cover a whole buffer -/

abbrev rE : Rect S1024x1024 := Rect.unit (s := S1024x1024) ![0, 0] S1024x1024.size inb_S1024x1024_S1024x1024_0_0
abbrev rW : Rect S1024x128 := Rect.unit (s := S1024x128) ![0, 0] S1024x128.size inb_S1024x128_S1024x128_0_0

/-- What the body leaves in the output buffer: its one store, of the product of the two input blocks. -/
def out0_2 (x0 : Vec F S1024x1024 .f32) (x1 : Vec F S1024x128 .f32) : Vec F S1024x128 .bf16 :=
  View.canon [⟨rW, k0_pay1 (View.ld x0 rE) (View.ld x1 rW)⟩]

/-- The store's rectangle is the whole buffer. -/
theorem cover0_2 (p0 : Vec F S1024x128 .bf16) (y : S1024x128.Idx) :
    ∃ pc ∈ ([⟨rW, p0⟩] : List (View.Piece (Elt F) S1024x128 .bf16)), y ∈ pc.1.set :=
  View.cover_of_tiled [⟨rW, p0⟩] S1024x128.size (by rfl) y

/-! ## The body's triple -/

set_option maxHeartbeats 1000000 in
/-- On whole buffers, the inputs' at read contents x0, x1 and the output's at anything, the body runs to the
    continuation with the inputs' as they were and the output's at out0_2 of them. -/
theorem sound_kernel0 (c : Dev nD) (E : Set ℕ) (i : grid0.Coords) (arg1 : Memref sig .tc .vmem S1024x1024 .f32) (harg1 : arg1.IsWhole)
    (arg2 : Memref sig .tc .vmem S1024x128 .f32) (harg2 : arg2.IsWhole) (arg3 : Memref sig .tc .vmem S1024x128 .bf16) (harg3 : arg3.IsWhole)
    (x0 : Vec F S1024x1024 .f32) (x1 : Vec F S1024x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The arrays as the region finds them; after the body at point t the inputs' buffers at their blocks and the output's
    at the product of those blocks; the invariant the untouched scoped rest and the generator register; nothing owed;
    every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Pair.lean ====
/-
  The pairwise-distance region: one 1024 × 1024 tile of the distance matrix per grid point (i, j).

  Stated at a parameter V, the contents of the core's buffers when the region is entered. Two of the region's windows
  read ONE array, the projected points: the first holds the i-th block of 1024 rows, the second the whole array, of
  which the body itself cuts rows 1024·j … 1024·j + 1023. At a point on the diagonal of the grid (i = j) the body
  stores the tile with a constant added where the global row and column agree; off the diagonal it stores the plain
  tile. Exactly one of the two stores happens at every point, each through the whole output buffer, so what the
  buffer holds afterwards is a function of the two input buffers and the point alone.
-/
import proofs.«179739_j25958782337133_2_alg».proof.Proof.Gen.KernelIdeal.Launch
import proofs.«179739_j25958782337133_2_alg».proof.Proof.Gen.KernelIdeal.Skeleton
import proofs.«179739_j25958782337133_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The i-th block of rows: fetched when i changes, held in between. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole array: fetched once, at the first point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's rectangles -/

/-- The whole block of rows, -/
abbrev rP : Rect S1024x128 := Rect.unit (s := S1024x128) ![0, 0] S1024x128.size inb_S1024x128_S1024x128_0_0
/-- rows 1024·j … of the whole array, -/
abbrev rS (i : grid1.Coords) : Rect S8192x128 := Rect.unit (s := S8192x128) (k1_off1 i) S1024x128.size (k1_off1_inb i)
/-- and the whole output tile. -/
abbrev rO : Rect S1024x1024 := Rect.unit (s := S1024x1024) ![0, 0] S1024x1024.size inb_S1024x1024_S1024x1024_0_0

/-! ## What the body leaves in the output buffer -/

/-- On the grid's diagonal: the tile with the constant added on its own diagonal. -/
def outDiag (i : grid1.Coords) (x0 : Vec F S1024x128 .bf16) (x1 : Vec F S8192x128 .bf16) : Vec F S1024x1024 .f32 :=
  View.canon [⟨rO, k1_pay2 i (View.ld x0 rP) (View.ld x1 (rS i))⟩]
/-- Off it: the plain tile. -/
def outOff (i : grid1.Coords) (x0 : Vec F S1024x128 .bf16) (x1 : Vec F S8192x128 .bf16) : Vec F S1024x1024 .f32 :=
  View.canon [⟨rO, k1_pay1 (View.ld x0 rP) (View.ld x1 (rS i))⟩]
/-- Either way, by the point. -/
def out1_2 (i : grid1.Coords) (x0 : Vec F S1024x128 .bf16) (x1 : Vec F S8192x128 .bf16) : Vec F S1024x1024 .f32 :=
  if k1_cond1 i = 1#1 then outDiag i x0 x1 else outOff i x0 x1

/-- The store's rectangle is the whole buffer. -/
theorem cover1_2 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

/-! ## The body's triple -/

set_option maxHeartbeats 1000000 in
/-- At a point where the second condition is the negation of the first (every grid point: i ≠ j is not i = j), on whole
    buffers, the inputs' at read contents x0, x1 and the output's at anything, the body runs to the continuation with
    the inputs' as they were and the output's at out1_2 of them. -/
theorem sound_kernel1 (c : Dev nD) (E : Set ℕ) (i : grid1.Coords) (arg2 : Memref sig .tc .vmem S1024x128 .bf16) (harg2 : arg2.IsWhole)
    (arg3 : Memref sig .tc .vmem S8192x128 .bf16) (harg3 : arg3.IsWhole) (arg4 : Memref sig .tc .vmem S1024x1024 .f32) (harg4 : arg4.IsWhole)
    (hx : k1_cond2 i = 1#1 ↔ ¬ k1_cond1 i = 1#1)
    (x0 : Vec F S1024x128 .bf16) (x1 : Vec F S8192x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 i x0 x1)) -∗ K ⟨⟩))
      ⊢ wp frame (wpE (defs₀ (F := F)) Variants.none c none) E (cc1__dist_kernel i arg2 harg2 arg3 harg3 arg4 harg4) K := by
  simp only [cc1__dist_kernel_eq_skeleton]; unfold cc1__dist_kernel_skel
  unfold owns
  by_cases h1 : k1_cond1 i = 1#1
  · have h2 : ¬ k1_cond2 i = 1#1 := fun h => (hx.mp h) h1
    iintro ⟨⟨%f0, %hf0, H0⟩, ⟨%f1, %hf1, H1⟩, ⟨%d2, %f2, -, H2⟩, Hk⟩
    subst hf0; subst hf1
    sl_exec (disch := first | exact h1 | exact h2)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    rw [out1_2, if_pos h1]
    exact View.read_writes_eq_canon _ _ _ (cover1_2 _)
  · have h2 : k1_cond2 i = 1#1 := hx.mpr h1
    iintro ⟨⟨%f0, %hf0, H0⟩, ⟨%f1, %hf1, H1⟩, ⟨%d2, %f2, -, H2⟩, Hk⟩
    subst hf0; subst hf1
    sl_exec (disch := first | exact h1 | exact h2)
    sl_step
    iapply Hk
    isplitl [H0]
    · iexists f0; isplitr; · ipureintro; rfl
      iexact H0
    isplitl [H1]
    · iexists f1; isplitr; · ipureintro; rfl
      iexact H1
    iexists _; isplitr
    swap; · iexact H2
    ipureintro
    rw [out1_2, if_neg h1]
    exact View.read_writes_eq_canon _ _ _ (cover1_2 _)

/-! ## The two conditions at a grid point: exactly one holds -/

theorem cond_excl : ∀ t : Fin cfg1.N, k1_cond2 (grid1.coords t) = 1#1 ↔ ¬ k1_cond1 (grid1.coords t) = 1#1 :=
  (by decide +kernel : ∀ t : Fin grid1.N, k1_cond2 (grid1.coords t) = 1#1 ↔ ¬ k1_cond1 (grid1.coords t) = 1#1)

/-! ## The proof data -/

/-- The arrays as the region finds them; after the body at point t the inputs' buffers at their blocks and the output's
    at the tile of those blocks; the invariant the untouched scoped rest and the generator register; nothing owed. The
    projected array is read through two windows: each holds one half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (cond_excl t) (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At a point that writes the window back, what the obligation asks of its buffer is what the body left there,
    idle or not. -/
theorem leavesExact_of_flush {c : Dev nD} (dat : Dat τ (Elt F) Unit ℕ (UR sig nD τ) ℕ cfg1 c) (w : Fin cfg1.W) (t : Fin cfg1.N)
    (hf : (cfg1.win w).flush t = true) :
    dat.leavesExact w t = owns (c : Thread nD τ) ((cfg1.win w).stage (cfg1.slots t w)) fullShare (dat.after w t) := by
  unfold Dat.leavesExact; rw [hf]; cases cfg1.idle w (cfg1.grid.coords t) <;> rfl

theorem body_obligation1 (c : Dev nD) : BodyObligation (dat1 (F := F) V c) (defs₀ (F := F)) Variants.none () Set.univ := fun t => by
  rw [bigSep_W1, bigSep_W1]
  show iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ (dat1 V c).leavesExact 2 t))
  rw [leavesExact_of_flush (dat1 V c) 2 t (flush1_2 t)]
  exact sound_body1 V c t

end Cert.KernelIdeal.Hand

end
-- ==== Proof.KernelIdeal.Whole.lean ====
/-
  The whole program: the projection region, then the pairwise-distance region, on every core.

  Between the two regions the thread holds every unscoped buffer at a named valuation: the launch memory; then the
  same with the projected array at what the first region's write-backs leave; then that with the distance matrix at
  what the second region's write-backs leave. Each region takes its windows' arrays out of that collection at its
  entry and puts them back at its exit. The second region reads the projected array through two windows: the
  buffer's one points-to is cut into two half shares at the entry, one per window, and joined at the exit. The run
  ends with every unscoped buffer read against the last valuation, which gives both the argument arrays as launched
  and the result array as the fold of the second region's write-backs.
-/
import proofs.«179739_j25958782337133_2_alg».proof.Proof.KernelIdeal.Proj
import proofs.«179739_j25958782337133_2_alg».proof.Proof.KernelIdeal.Pair
import proofs.«179739_j25958782337133_2_alg».proof.Proof.LibSharedWindows

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the projection region: its arrays at what the pipeline leaves, every other buffer as launched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the distance region: the distance matrix at what the pipeline leaves, every other buffer as before. -/
def W2 (c : Dev nD) : Valuation τ sig (Elt F) :=
  Function.update (W1 m ρ c) main_v1 ((dat1 (V1 m ρ) c).arrAt 2 cfg1.N)
theorem W2_out (c : Dev nD) : W2 m ρ c (Proc.devRef .tc main_v1) = (dat1 (V1 m ρ) c).arrAt 2 cfg1.N := by
  unfold W2; exact Function.update_self _ _ _
theorem W2_of_ne (c : Dev nD) (b : Ref sig .tc) (hb : b ≠ main_v1) :
    W2 m ρ c (Proc.devRef .tc b) = W1 m ρ c (Proc.devRef .tc b) := by
  unfold W2; exact Function.update_of_ne (StableHlo.devRef_ne_of_ne hb) _ _
abbrev V2 : (c : Dev nD) → (b : Ref sig .tc) → Buf (Elt F) ((c : Thread nD τ).loc b) := fun c b => W2 m ρ c b
theorem hF1 (c : Dev nD) : ∀ w : Fin cfg1.W, (dat1 (V1 m ρ) c).arrAt w cfg1.N = V2 m ρ c (Pipeline.arrRef spec1 w)
  | ⟨0, _⟩ => ((dat1 (V1 m ρ) c).arrAt_in 0 rfl _).trans ((A_eq1 (V1 m ρ) c 0).trans (W2_of_ne m ρ c main_v0 (by decide)).symm)
  | ⟨1, _⟩ => ((dat1 (V1 m ρ) c).arrAt_in 1 rfl _).trans ((A_eq1 (V1 m ρ) c 1).trans (W2_of_ne m ρ c main_v0 (by decide)).symm)
  | ⟨2, _⟩ => (W2_out m ρ c).symm
theorem hrest1 (c : Dev nD) : ∀ b, b ∉ Finset.univ.image (Pipeline.arrRef spec1) → V2 m ρ c b = V1 m ρ c b :=
  fun b hb => W2_of_ne m ρ c b fun e => hb (Finset.mem_image.mpr ⟨2, Finset.mem_univ _, e.symm⟩)

/-- The arguments end as launched: neither region writes one. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-! ## The distance region's arrays among the core's unscoped buffers -/

/-- The buffers behind the distance region's windows, whole at the full share at contents Vv, are the region's arrays
    at contents Fa when Fa is what Vv has at each window's buffer: the output's points-to as it is, the projected
    array's cut into the two windows' halves. -/
theorem arrBufs_arrays1 (c : Dev nD) (dat : Dat τ (Elt F) Unit ℕ (UR sig nD τ) ℕ cfg1 c)
    (hq0 : dat.q 0 = fullShare.left) (hq1 : dat.q 1 = fullShare.right)
    (Vv : (b : Ref sig .tc) → Buf (Elt F) ((c : Thread nD τ).loc b))
    (Fa : (w : Fin cfg1.W) → Buf (Elt F) ((cfg1.win w).arr.view.loc (c : Thread nD τ)))
    (hF : ∀ w, Fa w = Vv (Pipeline.arrRef spec1 w)) :
    (Pipeline.arrBufs (Ix := Unit) (Name := ℕ) (U := UR sig nD τ) (Lvl := ℕ) spec1 c Vv : sProp 𝕄) ⊣⊢ dat.arrays Fa := by
  unfold Pipeline.arrBufs Pipeline.Dat.arrays
  refine SharedWindows.buffers_iff_windows (Pipeline.arrRef spec1) _ _ (w₁ := (0 : Fin 3)) (w₂ := (1 : Fin 3)) (by decide) rfl (by decide) ?_ ?_
  · intro w h0 h1
    obtain rfl : w = 2 := by
      rcases w with ⟨_ | _ | _ | n, h⟩
      · exact absurd rfl h0
      · exact absurd rfl h1
      · rfl
      · omega
    rw [(arr_whole1 2).set_eq_univ, hF 2]; rfl
  · rw [(arr_whole1 0).set_eq_univ, hF 0, hF 1,
      show dat.share 0 = fullShare.left from hq0, show dat.share 1 = fullShare.right from hq1]
    exact pointsTo_share (PosShare.mem_left_op_right fullShare)

/-! ## The proof data family and the thread state -/

/-- No pipeline has a prefetched table. -/
abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the owes apart. -/
abbrev Tₙ (c : Dev nD) : sProp 𝕄 := iprop(StableHlo.held (c : Thread nD τ) (Pipeline.ucRefs τ sig) (W2 m ρ c) ∗ ∃ r, prngReg c r)

/-! ## The distance region's entry and exit, the buffers' part -/

set_option backward.isDefEq.respectTransparency.types false in
theorem entry1 (c : Dev nD) :
    (StableHlo.held (c : Thread nD τ) (Pipeline.ucRefs τ sig) (W1 m ρ c) : sProp 𝕄)
      ⊢ iprop((pdats m ρ 1 c).arrays ((pdats m ρ 1 c).arrAt · 0)
          ∗ Pipeline.unscopedRest (Ix := Unit) (Name := ℕ) (U := UR sig nD τ) (Lvl := ℕ) spec1 c (V1 m ρ c)) := by
  rw [← Pipeline.unscopedBufs_held (Ix := Unit) (Name := ℕ) (U := UR sig nD τ) (Lvl := ℕ) c (W1 m ρ c),
    Pipeline.unscopedBufs_split₀ (Pipeline.pin (pcfgs (F := F)) adm) 1 winFacts₀1.arr_unscoped c (V1 m ρ c)]
  exact sep_mono (arrBufs_arrays1 c (pdats m ρ 1 c) rfl rfl (V1 m ρ c) ((pdats m ρ 1 c).arrAt · 0) (fun _ => rfl)).1 .rfl

set_option backward.isDefEq.respectTransparency.types false in
theorem exit1 (c : Dev nD) :
    iprop((pdats m ρ 1 c).arrays ((pdats m ρ 1 c).arrAt · cfg1.N)
          ∗ Pipeline.unscopedRest (Ix := Unit) (Name := ℕ) (U := UR sig nD τ) (Lvl := ℕ) spec1 c (V1 m ρ c))
      ⊢ (StableHlo.held (c : Thread nD τ) (Pipeline.ucRefs τ sig) (W2 m ρ c) : sProp 𝕄) := by
  rw [← Pipeline.unscopedBufs_held (Ix := Unit) (Name := ℕ) (U := UR sig nD τ) (Lvl := ℕ) c (W2 m ρ c),
    Pipeline.unscopedBufs_split₀ (Pipeline.pin (pcfgs (F := F)) adm) 1 winFacts₀1.arr_unscoped c (V2 m ρ c)]
  refine sep_mono (arrBufs_arrays1 c (pdats m ρ 1 c) rfl rfl (V2 m ρ c) ((pdats m ρ 1 c).arrAt · cfg1.N) (hF1 m ρ c)).2 (Entails.of_eq ?_)
  unfold Pipeline.unscopedRest
  exact bigSep_congr fun b hb => by rw [hrest1 m ρ c b (Finset.mem_sdiff.mp hb).2]

/-! ## The regions as segments -/

set_option backward.isDefEq.respectTransparency.types false in
/-- The projection region: entered from every unscoped buffer at the launch contents, left at the contents after it.
    Its arrays are distinct buffers: taken out of the unscoped buffers and put back one for one. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from the contents after the projection, left at the last contents. Two of its windows
    name the projected array: the entry cuts that buffer's share in two, the exit joins the halves (entry1, exit1). -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    iintro ⟨⟨Hub, Hp, HO⟩, -, -⟩
    ihave H := (entry1 m ρ c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m ρ c); isplitl [Ha] <;> iassumption
      iexact HY
    unfold Pipeline.Dat.owesAt Pipeline.owesWithin
    icases HO with ⟨%W, -, HO⟩; iexists W; iexact HO

/-! ## The program as its two regions, and the run -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- Every weakly fair execution from memory m terminates without a fault, and every unscoped buffer of every core
    ends at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W2_main_arg0 m ρ c),
     (h c _ (mem_uc main_arg1 (by decide))).trans (W2_main_arg1 m ρ c)⟩) (run_all m ρ)

/-- The run with the result named: the distance matrix ends at the fold of the distance region's write-backs over the
    contents the projection region left; the argument arrays as launched. -/
theorem run_result : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v1 (by decide))).trans (W2_out m ρ c),
     (h c _ (mem_uc main_arg0 (by decide))).trans (W2_main_arg0 m ρ c),
     (h c _ (mem_uc main_arg1 (by decide))).trans (W2_main_arg1 m ρ c)⟩) (run_all m ρ)

/-- The projected array as the distance region finds it: the fold of the projection region's write-backs. -/
theorem V1_projected (c : Dev nD) : V1 m ρ c main_v0 = (dat0 (V0 m ρ) c).arrAt 2 cfg0.N := W1_arr m ρ c 2

end Cert.KernelIdeal.Hand

end
-- ==== Proof.DistSpec.lean ====
/-
  The specification: pairwise squared distances of projected rows, with a small constant added on the diagonal.

  For embeddings E (8192 × 1024) and weights W (1024 × 128) let P = E · W, row by row:
      P[r, k] = ∑ d, E[r, d] · W[d, k].
  The result at (r, c) is
      (|P_r|² + |P_c|²) − 2 · ⟨P_r, P_c⟩,      plus ε when r = c,
  with |P_r|² = ∑ k, P[r, k]², ⟨P_r, P_c⟩ = ∑ k, P[r, k] · P[c, k].  The two float constants stay the words they are
  written as (2 and ε are never evaluated): both programs hold the same words.  Everything is over the extended reals,
  with their own +, −, ·.
-/
import Idealize.ShloMosaic.PureOps.Ideal
import Idealize.ShloMosaic.Lib.ValueIdx
import Mathlib.Algebra.BigOperators.Fin

open scoped BigOperators

noncomputable section

namespace Cert.Dist

open Idealize.ShloMosaic Idealize.ShloMosaic.ValueIdx

/-- The constant 2, as the f32 word both programs hold. -/
abbrev two : EReal := Ideal.ofBits .f32 0x40000000#32
/-- The constant ε added on the diagonal, as the f32 word both programs hold. -/
abbrev eps : EReal := Ideal.ofBits .f32 0x322BCC77#32

/-- The projection P = E · W at an index: the sum over the contracted coordinate. -/
def proj (E : (⟨2, ![8192, 1024]⟩ : Shape).Idx → EReal) (W : (⟨2, ![1024, 128]⟩ : Shape).Idx → EReal) :
    (⟨2, ![8192, 128]⟩ : Shape).Idx → EReal :=
  fun j => ∑ d : Fin 1024, E (ix2 (n0 := 8192) (n1 := 1024) (j 0) d) * W (ix2 (n0 := 1024) (n1 := 128) d (j 1))

theorem proj_apply (E : (⟨2, ![8192, 1024]⟩ : Shape).Idx → EReal) (W : (⟨2, ![1024, 128]⟩ : Shape).Idx → EReal)
    (r : Fin 8192) (k : Fin 128) : proj E W (ix2 r k) = ∑ d : Fin 1024, E (ix2 r d) * W (ix2 d k) := rfl

/-- The squared distance of rows r and c of P, before the diagonal term:  (|P_r|² + |P_c|²) − 2 · ⟨P_r, P_c⟩. -/
def dist0 (P : (⟨2, ![8192, 128]⟩ : Shape).Idx → EReal) (r c : Fin 8192) : EReal :=
  ((∑ k : Fin 128, P (ix2 r k) * P (ix2 r k)) + (∑ k : Fin 128, P (ix2 c k) * P (ix2 c k)))
    - two * (∑ k : Fin 128, P (ix2 r k) * P (ix2 c k))

theorem dist0_apply (P : (⟨2, ![8192, 128]⟩ : Shape).Idx → EReal) (r c : Fin 8192) :
    dist0 P r c = ((∑ k : Fin 128, P (ix2 r k) * P (ix2 r k)) + (∑ k : Fin 128, P (ix2 c k) * P (ix2 c k)))
      - two * (∑ k : Fin 128, P (ix2 r k) * P (ix2 c k)) := rfl

/-- The distance matrix of P: `dist0` off the diagonal, `dist0 + ε` on it. -/
def D (P : (⟨2, ![8192, 128]⟩ : Shape).Idx → EReal) : (⟨2, ![8192, 8192]⟩ : Shape).Idx → EReal :=
  fun i => if (i 0).val = (i 1).val then dist0 P (i 0) (i 1) + eps else dist0 P (i 0) (i 1)

theorem D_apply (P : (⟨2, ![8192, 128]⟩ : Shape).Idx → EReal) (r c : Fin 8192) :
    D P (ix2 r c) = if r.val = c.val then dist0 P r c + eps else dist0 P r c := rfl

/-- The whole specification: the distance matrix of the projection. -/
def G (E : (⟨2, ![8192, 1024]⟩ : Shape).Idx → EReal) (W : (⟨2, ![1024, 128]⟩ : Shape).Idx → EReal) :
    (⟨2, ![8192, 8192]⟩ : Shape).Idx → EReal := D (proj E W)

theorem G_apply (E : (⟨2, ![8192, 1024]⟩ : Shape).Idx → EReal) (W : (⟨2, ![1024, 128]⟩ : Shape).Idx → EReal) (r c : Fin 8192) :
    G E W (ix2 r c) = if r.val = c.val then dist0 (proj E W) r c + eps else dist0 (proj E W) r c := rfl

end Cert.Dist

end
-- ==== Proof.DistRef.lean ====
/-
  The reference program computes the specification.

  The reference forms P = E · W by one matrix product, the squared row norms by a sum over the 128 columns of P ⊙ P, the
  Gram matrix P · Pᵀ by a second product against the transpose, and  (|P_r|² + |P_c|²) − 2 · ⟨P_r, P_c⟩  entry by entry.
  Its diagonal term is  [r = c] · ε  added to EVERY entry: the indicator is the comparison of the two coordinates as
  32-bit words (both below 8192, so the words agree exactly when the coordinates do), read as the number 0 or 1.  On the
  diagonal that is 1 · ε = ε; off it, 0 · ε = 0 and x + 0 = x for every extended real x, infinite ones included, so the
  sum is the specification's entry with no finiteness assumption.
-/
import proofs.«179739_j25958782337133_2_alg».proof.Proof.Gen.ReferenceIdeal.Read
import proofs.«179739_j25958782337133_2_alg».proof.Proof.DistSpec
import Idealize.ShloMosaic.Lib.ValueIdx
import Idealize.ShloMosaic.PureOps.Ideal.Laws

open scoped BigOperators

namespace Cert.Dist

open Idealize.ShloMosaic Idealize.ShloMosaic.ValueIdx
open Cert.ReferenceIdeal Cert.ReferenceIdeal.Read

variable (x : FVec Ideal Cert.ReferenceIdeal.S8192x1024 .f32) (w : FVec Ideal Cert.ReferenceIdeal.S1024x128 .f32)

/-- The reference's first product is the projection. -/
theorem ref_proj : val_main_v0 (F := Ideal) x w = proj x w := by
  funext j
  obtain ⟨r, k, rfl⟩ : ∃ (r : Fin 8192) (k : Fin 128), j = ix2 r k := ⟨j 0, j 1, eq_ix2 j⟩
  rw [val_main_v0_apply, proj_apply]
  refine Finset.sum_congr rfl fun d _ => ?_
  congr 1
  · exact congrArg x (funext fun a => Fin.ext (by match a with | ⟨0, _⟩ => rfl | ⟨1, _⟩ => rfl))
  · exact congrArg w (funext fun a => Fin.ext (by match a with | ⟨0, _⟩ => rfl | ⟨1, _⟩ => rfl))

/-- The squared norm of row r of the projection. -/
theorem ref_sq (r : Fin 8192) :
    val_main_v2 (F := Ideal) x w (ix1 r) = ∑ k : Fin 128, proj x w (ix2 r k) * proj x w (ix2 r k) := by
  rw [val_main_v2_apply, val_main_cst_apply]
  show Ideal.ofBits .f32 0x00000000#32 + _ = _
  rw [Ideal.ofBits_zero_f32, zero_add]
  refine Finset.sum_congr rfl fun k _ => ?_
  rw [val_main_v1_apply, ref_proj]
  show proj x w (idx_main_v2 (ix1 r) k) * proj x w (idx_main_v2 (ix1 r) k) = _
  rw [show idx_main_v2 (ix1 r) k = ix2 r k from
    funext fun a => Fin.ext (by match a with | ⟨0, _⟩ => rfl | ⟨1, _⟩ => rfl)]

/-- The row norms broadcast along the rows: at (r, c) the norm of row r. -/
theorem ref_rowTerm (r c : Fin 8192) : val_main_v7 (F := Ideal) x w (ix2 r c) = val_main_v2 (F := Ideal) x w (ix1 r) := by
  rw [val_main_v7_apply, val_main_v5_apply]
  exact congrArg _ (funext fun a => Fin.ext (by match a with | ⟨0, _⟩ => rfl))

/-- The row norms broadcast along the columns: at (r, c) the norm of row c. -/
theorem ref_colTerm (r c : Fin 8192) : val_main_v8 (F := Ideal) x w (ix2 r c) = val_main_v2 (F := Ideal) x w (ix1 c) := by
  rw [val_main_v8_apply, val_main_v6_apply]
  exact congrArg _ (funext fun a => Fin.ext (by match a with | ⟨0, _⟩ => rfl))

/-- The Gram matrix at (r, c): the inner product of rows r and c of the projection. -/
theorem ref_gram (r c : Fin 8192) :
    val_main_v4 (F := Ideal) x w (ix2 r c) = ∑ k : Fin 128, proj x w (ix2 r k) * proj x w (ix2 c k) := by
  rw [val_main_v4_apply]
  refine Finset.sum_congr rfl fun k _ => ?_
  rw [val_main_v3_apply, ref_proj]
  exact congrArg₂ (fun a b => proj x w a * proj x w b)
    (funext fun a => Fin.ext (by match a with | ⟨0, _⟩ => rfl | ⟨1, _⟩ => rfl))
    (funext fun a => Fin.ext (by match a with | ⟨0, _⟩ => rfl | ⟨1, _⟩ => rfl))

/-- Before the diagonal term the reference's entry is the squared distance of rows r and c. -/
theorem ref_dist0 (r c : Fin 8192) : val_main_v12 (F := Ideal) x w (ix2 r c) = dist0 (proj x w) r c := by
  rw [val_main_v12_apply, val_main_v9_apply, val_main_v11_apply, ref_rowTerm, ref_colTerm, ref_sq, ref_sq, ref_gram,
    val_main_v10_apply, val_main_cst_0_apply, dist0_apply]
  rfl

/-- Two coordinates below 8192 agree as 32-bit words exactly when they agree. -/
theorem coord_word (r c : Nat) (hr : r < 8192) (hc : c < 8192) :
    IntOp.cmpi .eq (IntOp.addi (BitVec.ofNat 32 r) 0#32) (BitVec.ofNat 32 c) = if r = c then 1#1 else 0#1 := by
  show BitVec.ofBool (BitVec.ofNat 32 r + 0#32 == BitVec.ofNat 32 c) = _
  rw [BitVec.add_zero]
  by_cases h : r = c
  · rw [if_pos h, h, beq_self_eq_true]; rfl
  · rw [if_neg h]
    have hne : BitVec.ofNat 32 r ≠ BitVec.ofNat 32 c := by
      intro e
      have e' := congrArg BitVec.toNat e
      simp only [BitVec.toNat_ofNat] at e'
      omega
    rw [beq_eq_false_iff_ne.mpr hne]; rfl

/-- The reference's diagonal term: ε on the diagonal, 0 off it. -/
theorem ref_diag (r c : Fin 8192) : val_main_v20 (F := Ideal) (ix2 r c) = if r.val = c.val then eps else 0 := by
  rw [val_main_v20_apply, val_main_v18_apply, val_main_v17_apply, val_main_v16_apply, val_main_v13_apply,
    val_main_v15_apply, val_main_c_apply, val_main_v14_apply, val_main_v19_apply, val_main_cst_1_apply]
  show FloatOps.mulf (FloatOps.uitofp (F := Ideal) .f32 (IntOp.cmpi .eq (IntOp.addi (BitVec.ofNat 32 r.val) 0#32) (BitVec.ofNat 32 c.val))) eps = _
  rw [coord_word r.val c.val r.isLt c.isLt]
  by_cases h : r.val = c.val
  · rw [if_pos h, if_pos h]
    show (((1#1 : BitVec 1).toNat : ℝ) : EReal) * eps = eps
    simp
  · rw [if_neg h, if_neg h]
    show (((0#1 : BitVec 1).toNat : ℝ) : EReal) * eps = 0
    simp

/-- The reference's last stage is the specification. -/
theorem ref_is_G : val_main_v21 (F := Ideal) x w = G x w := by
  funext i
  obtain ⟨r, c, rfl⟩ : ∃ (r c : Fin 8192), i = ix2 r c := ⟨i 0, i 1, eq_ix2 i⟩
  rw [val_main_v21_apply, ref_dist0, ref_diag, G_apply]
  by_cases h : r.val = c.val
  · rw [if_pos h, if_pos h]; rfl
  · rw [if_neg h, if_neg h]
    exact add_zero _

end Cert.Dist
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«179739_j25958782337133_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.DistPay0.lean ====
/-
  The projection kernel's stored block at an entry.

  One grid point of the projection multiplies a 1024 × 1024 block of the embeddings by the whole 1024 × 128 weight
  matrix into a zero accumulator.  At the ideal values the two narrowing casts on the way in and the one on the way out
  are the identity, so the stored block at (r, k) is the plain sum over d of  e[r, d] · w[d, k].
-/
import proofs.«179739_j25958782337133_2_alg».proof.Proof.Gen.KernelIdeal.Skeleton
import proofs.«179739_j25958782337133_2_alg».proof.Proof.LibMatmulRead
import Idealize.ShloMosaic.Lib.ValueIdx
import Idealize.ShloMosaic.PureOps.Ideal.Laws

open scoped BigOperators

namespace Cert.Dist

open Idealize.ShloMosaic Idealize.ShloMosaic.ValueIdx
open Cert.KernelIdeal Cert.KernelIdeal.Gen

/-- The projection block at (r, k): the sum over d of e[r, d] · w[d, k]. -/
theorem pay0_apply (v0 : Vec Ideal S1024x1024 .f32) (v2 : Vec Ideal S1024x128 .f32) (r : Fin 1024) (k : Fin 128) :
    k0_pay1 (F := Ideal) v0 v2 (ix2 r k) = ∑ d : Fin 1024, v0 (ix2 r d) * v2 (ix2 d k) := by
  unfold k0_pay1
  exact Cert.GCN.matmul_plain_zero_apply (M := 1024) (K := 1024) (N := 128) none _ _ r k

end Cert.Dist
-- ==== Proof.DistFinal0.lean ====
/-
  The projection region's result as one array: block t of the output is rows 1024·t … 1024·t + 1023 of E · W, each
  entry (r, k) of it the sum over d of E's row 1024·t + r against W's column k; the eight blocks tile the array's rows,
  so after the last write-back the whole array is E · W.
-/
import proofs.«179739_j25958782337133_2_alg».proof.Proof.KernelIdeal.Proj
import proofs.«179739_j25958782337133_2_alg».proof.Proof.DistSpec
import proofs.«179739_j25958782337133_2_alg».proof.Proof.DistPay0
import Idealize.ShloMosaic.Lib.Pipeline.Value
import Idealize.ShloMosaic.Lib.ValueIdx

set_option maxRecDepth 16384

noncomputable section

namespace Cert.Dist

open Idealize.ShloMosaic Idealize.ShloMosaic.ValueIdx Idealize.ShloMosaic.TcCoe Idealize.SL.Sem
open Cert.KernelIdeal Cert.KernelIdeal.Gen Cert.KernelIdeal.Hand
open Idealize.ShloMosaic.Pipeline (Dat)

variable (Vv : (c : Dev nD) → (b : Ref sig .tc) → Buf (Elt Ideal) ((c : Thread nD τ).loc b))

theorem zero_off2 : (![0, 0] : Fin 2 → Nat) = fun _ => 0 := funext fun a => by fin_cases a <;> rfl

/-- The three index maps over the grid: E's blocks and the output's move down the rows with the point, W's stays. -/
theorem proj_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 8 :=
  (by decide +kernel : ∀ t : Fin grid0.N, _)

/-- What point t writes back is block t of E · W. -/
theorem proj_flushed (c : Dev nD) (t : Fin cfg0.N) :
    (dat0 (F := Ideal) Vv c).flushed 2 t = ((cfg0.win 2).blk t).view.read (Elt Ideal) (proj (Vv c main_arg0) (Vv c main_arg1)) := by
  show (cfg0.win 2).cut (grid0.coords t) ((dat0 Vv c).after 2 t) = _
  rw [after0_2]
  unfold out0_2
  rw [View.canon_unit_zero zero_off2]
  simp only [View.ld_unit_zero (S := S1024x1024) zero_off2, View.ld_unit_zero (S := S1024x128) zero_off2]
  obtain ⟨e00, e01, e10, e11, e20, e21, ht⟩ := proj_index t
  funext j
  obtain ⟨r, k, rfl⟩ : ∃ (r : Fin 1024) (k : Fin 128), j = ix2 r k := ⟨j 0, j 1, eq_ix2 j⟩
  have hr : r.val < 1024 := r.isLt
  refine (pay0_apply _ _ r k).trans ?_
  have hj : ((cfg0.win 2).blk t).view.emb (ix2 r k) = ix2 (⟨t.val * 1024 + r.val, by omega⟩ : Fin 8192) k := by
    funext a; apply Fin.ext
    match a with
    | ⟨0, _⟩ => show win0_2.index t (0 : Fin 2) * 1024 + 1 * r.val = t.val * 1024 + r.val; omega
    | ⟨1, _⟩ => show win0_2.index t (1 : Fin 2) * 128 + 1 * k.val = k.val; omega
  show _ = proj (Vv c main_arg0) (Vv c main_arg1) (((cfg0.win 2).blk t).view.emb (ix2 r k))
  rw [hj, proj_apply]
  refine Finset.sum_congr rfl fun d _ => ?_
  have hE : iblk0 Vv c 0 t (ix2 r d) = Vv c main_arg0 (ix2 (⟨t.val * 1024 + r.val, by omega⟩ : Fin 8192) d) := by
    show Vv c main_arg0 (((cfg0.win 0).blk t).view.emb (ix2 r d)) = _
    refine congrArg _ ?_
    funext a; apply Fin.ext
    match a with
    | ⟨0, _⟩ => show win0_0.index t (0 : Fin 2) * 1024 + 1 * r.val = t.val * 1024 + r.val; omega
    | ⟨1, _⟩ => show win0_0.index t (1 : Fin 2) * 1024 + 1 * d.val = d.val; omega
  have hW : iblk0 Vv c 1 t (ix2 d k) = Vv c main_arg1 (ix2 d k) := by
    show Vv c main_arg1 (((cfg0.win 1).blk t).view.emb (ix2 d k)) = _
    refine congrArg _ ?_
    funext a; apply Fin.ext
    match a with
    | ⟨0, _⟩ => show win0_1.index t (0 : Fin 2) * 1024 + 1 * d.val = d.val; omega
    | ⟨1, _⟩ => show win0_1.index t (1 : Fin 2) * 128 + 1 * k.val = k.val; omega
  exact congrArg₂ (· * ·) hE hW

/-- An index of the array is in point t's block iff each coordinate is in the block's range on its axis. -/
theorem proj_mem_blk (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0).slice (win0_2.rect t)).set ↔ _
  rw [View.set_slice_whole, Rect.mem_set_unit]
  exact Iff.rfl

/-- Row r of the array lies in the block of point r / 1024. -/
theorem proj_cover (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  have hN : cfg0.N = 8 := N_0
  have hlt : (i 0).val / 1024 < cfg0.N := by rw [hN]; omega
  obtain ⟨e00, e01, e10, e11, e20, e21, ht⟩ := proj_index ⟨(i 0).val / 1024, hlt⟩
  refine ⟨⟨(i 0).val / 1024, hlt⟩, flush0_2 _, ?_⟩
  rw [proj_mem_blk]
  intro a
  match a with
  | ⟨0, _⟩ =>
    show win0_2.index ⟨(i 0).val / 1024, hlt⟩ (0 : Fin 2) * 1024 ≤ (i 0).val ∧ (i 0).val < win0_2.index ⟨(i 0).val / 1024, hlt⟩ (0 : Fin 2) * 1024 + 1024
    have : (⟨(i 0).val / 1024, hlt⟩ : Fin cfg0.N).val = (i 0).val / 1024 := rfl
    omega
  | ⟨1, _⟩ =>
    show win0_2.index ⟨(i 0).val / 1024, hlt⟩ (1 : Fin 2) * 128 ≤ (i 1).val ∧ (i 1).val < win0_2.index ⟨(i 0).val / 1024, hlt⟩ (1 : Fin 2) * 128 + 128
    omega

/-- After the region the output array is E · W. -/
theorem final0 (c : Dev nD) : (dat0 (F := Ideal) Vv c).arrAt 2 cfg0.N = proj (Vv c main_arg0) (Vv c main_arg1) :=
  (dat0 (F := Ideal) Vv c).arrAt_eq_of_cover 2 (proj (Vv c main_arg0) (Vv c main_arg1)) (fun t _ => proj_flushed Vv c t) (proj_cover)

end Cert.Dist

end
-- ==== Proof.LibMatmulLastAxes.lean ====
/-
  A matrix product that contracts the LAST axis of both operands, read at an entry, at the ideal values.

  The tiled kernels' product of an [M, K] block of activations with an [N, K] block of weights (one weight row per
  output feature: the right operand is NOT transposed first; the dimension numbers contract axis 1 of both) into a
  zero accumulator is, at entry (r, c), the plain sum over d of  l[r, d] · w[c, d]:  at the ideal values no rounding,
  no chunk order and no accumulator are left.  Stated for every M, K, N over the library's record of these dimension
  numbers; a printed record of the same seven lists is that record by definitional unfolding (its well-formedness field
  is a proof).
-/
import Idealize.ShloMosaic.PureOps.Ideal.Laws
import Idealize.ShloMosaic.Lib.ValueIdx

open scoped BigOperators

namespace Cert.LibMatmulLastAxes

open Idealize.ShloMosaic Idealize.ShloMosaic.ValueIdx

/-- A matrix product contracting the last axis of both operands, into the zero accumulator, at (r, c): the sum over
    d of l[r, d] · w[c, d]. -/
theorem matmul_lastAxes_zero_apply {M K N : Nat} {φ₁ φ₂ : FTy} (prec : Option ContractPrecision)
    (l : FVec Ideal ⟨2, ![M, K]⟩ φ₁) (w : FVec Ideal ⟨2, ![N, K]⟩ φ₂) (r : Fin M) (c : Fin N) :
    FloatOps.matmul (DotDims.transposedRhs M K N) prec l w (constant ⟨2, ![M, N]⟩ .f32 0x00000000#32) (ix2 r c)
      = ∑ d : Fin K, l (ix2 r d) * w (ix2 c d) := by
  rw [Ideal.matmul_constant_zero_apply]
  have hr : (DotDims.transposedRhs M K N).contr.rank = 1 := rfl
  have hs : (DotDims.transposedRhs M K N).contr.size ⟨0, by omega⟩ = K := rfl
  rw [← Equiv.sum_comp (contrEquiv1 (DotDims.transposedRhs M K N) K hr hs).symm]
  refine Finset.sum_congr rfl fun d _ => ?_
  have hd := contrEquiv1_symm_val (DotDims.transposedRhs M K N) K hr hs d
  congr 1
  · refine congrArg l (funext fun a => Fin.ext ?_)
    match a with
    | ⟨0, _⟩ => rfl
    | ⟨1, _⟩ => exact ((DotDims.transposedRhs M K N).lhsIdx_val_of_single rfl _ _).trans hd
  · refine congrArg w (funext fun a => Fin.ext ?_)
    match a with
    | ⟨0, _⟩ => rfl
    | ⟨1, _⟩ => exact ((DotDims.transposedRhs M K N).rhsIdx_val_of_single rfl _ _).trans hd

end Cert.LibMatmulLastAxes
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.DistPay1.lean ====
/-
  The distance kernel's stored block at an entry.

  One grid point (i, j) of the distance kernel holds a 1024 × 128 block a of projected rows and a 1024 × 128 block b of
  projected rows.  It forms the Gram block  a · bᵀ  (contracting the last axis of both), the squared norms of the rows
  of a as a column and of the rows of b as a row, and stores  (|a_r|² + |b_c|²) − 2 · ⟨a_r, b_c⟩  at (r, c); on the grid
  points of the diagonal it adds ε where the global row and column numbers  i · 1024 + r  and  j · 1024 + c  agree.
-/
import proofs.«179739_j25958782337133_2_alg».proof.Proof.Gen.KernelIdeal.Skeleton
import proofs.«179739_j25958782337133_2_alg».proof.Proof.LibMatmulLastAxes
import proofs.«179739_j25958782337133_2_alg».proof.Proof.LibKeepdims
import proofs.«179739_j25958782337133_2_alg».proof.Proof.DistSpec
import Idealize.ShloMosaic.Lib.ValueIdx
import Idealize.ShloMosaic.Lib.ValueLayout
import Idealize.ShloMosaic.Lib.Pipeline.Value
import Idealize.ShloMosaic.PureOps.Ideal.Laws

open scoped BigOperators

namespace Cert.Dist

open Idealize.ShloMosaic Idealize.ShloMosaic.ValueIdx
open Cert.KernelIdeal Cert.KernelIdeal.Gen

/-- A lane sum of a 1024 × 128 array at row r: the sum over the 128 lanes. -/
theorem laneSum_apply (y : FVec Ideal S1024x128 .f32) (h : S1024x128.Reduces [1] S1024) (hφ : FKind.Formats .f32)
    (hacc : (0x00000000#32 : BitVec 32) = 0x00000000#32) (r : Fin 1024) :
    multiReduction .add [1] S1024 y 0x00000000#32 h hφ hacc (ix1 r) = ∑ k : Fin 128, y (ix2 r k) := by
  refine (Ideal.multiReduction_add_single y 0x00000000#32 h hφ hacc (ix1 r)).trans ?_
  refine Finset.sum_congr rfl fun k _ => ?_
  exact congrArg y (funext fun a => Fin.ext (by match a with | ⟨0, _⟩ => rfl | ⟨1, _⟩ => rfl))

/-- Row norms as a column, broadcast along the rows: at (r, c) the lane sum of row r. -/
theorem colTerm_apply (y : FVec Ideal S1024x128 .f32) (r c : Fin 1024) :
    broadcastTo S1024x1024 (shapeCast S1024x1 (multiReduction .add [1] S1024 y 0x00000000#32 reduces_S1024x128_S1024 (.inl rfl) rfl)
      shapeCasts_S1024_S1024x1) broadcasts_S1024x1_S1024x1024 (ix2 r c) = ∑ k : Fin 128, y (ix2 r k) :=
  (Cert.LibKeepdims.keepdims_apply _ _ _ r c).trans (laneSum_apply y _ _ _ r)

/-- Row norms as a column, transposed to a row, broadcast along the columns: at (r, c) the lane sum of row c. -/
theorem rowTerm_apply (y : FVec Ideal S1024x128 .f32) (r c : Fin 1024) :
    broadcastTo S1024x1024 (transpose S1x1024 [1, 0] (shapeCast S1024x1 (multiReduction .add [1] S1024 y 0x00000000#32 reduces_S1024x128_S1024 (.inl rfl) rfl)
      shapeCasts_S1024_S1024x1) transposes_S1024x1_p1_0_S1x1024) broadcasts_S1x1024_S1024x1024 (ix2 r c) = ∑ k : Fin 128, y (ix2 c k) :=
  (broadcastTo_1b_ab_apply _ _ r c).trans
    ((transpose_ix2_apply _ _ (0 : Fin 1) c).trans
      ((Cert.LibKeepdims.shapeCast_a_a1_apply _ _ c 0).trans (laneSum_apply y _ _ _ c)))

/-- The stored block off the diagonal grid points, at (r, c). -/
theorem pay1_apply (v0 v5 : Vec Ideal S1024x128 .bf16) (r c : Fin 1024) :
    k1_pay1 (F := Ideal) v0 v5 (ix2 r c)
      = ((∑ k : Fin 128, v0 (ix2 r k) * v0 (ix2 r k)) + (∑ k : Fin 128, v5 (ix2 c k) * v5 (ix2 c k)))
          - two * (∑ k : Fin 128, v0 (ix2 r k) * v5 (ix2 c k)) := by
  unfold k1_pay1
  dsimp only
  rw [shapeCast_self v0, shapeCast_self v5]
  rw [subf_apply, addf_apply, mulf_apply, broadcast_apply, colTerm_apply, rowTerm_apply]
  have hg := Cert.LibMatmulLastAxes.matmul_lastAxes_zero_apply (M := 1024) (K := 128) (N := 1024) (φ₁ := .bf16) (φ₂ := .bf16)
    none v0 v5 r c
  exact congrArg (fun z : EReal => ((∑ k : Fin 128, v0 (ix2 r k) * v0 (ix2 r k)) + (∑ k : Fin 128, v5 (ix2 c k) * v5 (ix2 c k)))
    - two * z) hg

/-- The word comparison of the global row and column numbers: with i, j below 8 and r, c below 1024 nothing wraps around
    in 32 bits, so the words agree exactly when the numbers do. -/
theorem diag_word (a b r c : Nat) (ha : a < 8) (hb : b < 8) (hr : r < 1024) (hc : c < 1024) :
    IntOp.cmpi .eq (IntOp.addi (Scalar.muli (BitVec.ofNat 32 a) 1024#32) (BitVec.ofNat 32 r))
        (IntOp.addi (Scalar.muli (BitVec.ofNat 32 b) 1024#32) (BitVec.ofNat 32 c))
      = if a * 1024 + r = b * 1024 + c then 1#1 else 0#1 := by
  have key : ∀ a r : Nat, IntOp.addi (Scalar.muli (BitVec.ofNat 32 a) 1024#32) (BitVec.ofNat 32 r)
      = BitVec.ofNat 32 (a * 1024 + r) := by
    intro a r
    show BitVec.ofNat 32 a * BitVec.ofNat 32 1024 + BitVec.ofNat 32 r = _
    rw [← BitVec.ofNat_mul, ← BitVec.ofNat_add]
  rw [key a r, key b c]
  show BitVec.ofBool (BitVec.ofNat 32 (a * 1024 + r) == BitVec.ofNat 32 (b * 1024 + c)) = _
  by_cases h : a * 1024 + r = b * 1024 + c
  · rw [if_pos h, h, beq_self_eq_true]; rfl
  · rw [if_neg h]
    have hne : BitVec.ofNat 32 (a * 1024 + r) ≠ BitVec.ofNat 32 (b * 1024 + c) := by
      intro e
      have e' := congrArg BitVec.toNat e
      simp only [BitVec.toNat_ofNat] at e'
      omega
    rw [beq_eq_false_iff_ne.mpr hne]; rfl

/-- The stored block on the diagonal grid points, at (r, c): ε is added exactly where the global row and column agree. -/
theorem pay2_apply (i : grid1.Coords) (v0 v5 : Vec Ideal S1024x128 .bf16) (r c : Fin 1024) :
    k1_pay2 (F := Ideal) i v0 v5 (ix2 r c)
      = if (i 0).val * 1024 + r.val = (i 1).val * 1024 + c.val then k1_pay1 (F := Ideal) v0 v5 (ix2 r c) + eps
        else k1_pay1 (F := Ideal) v0 v5 (ix2 r c) := by
  unfold k1_pay2
  dsimp only
  rw [select_apply]
  have h0 : (i 0).val < 8 := (i 0).isLt
  have h1 : (i 1).val < 8 := (i 1).isLt
  have hbit : cmpi .eq
        (addi (broadcast S1024x1024 (Scalar.muli (BitVec.ofNat 32 (i 0).val) 1024#32)) (iota .tc S1024x1024 32 [0] iota_S1024x1024_d0_w32))
        (addi (broadcast S1024x1024 (Scalar.muli (BitVec.ofNat 32 (i 1).val) 1024#32)) (iota .tc S1024x1024 32 [1] iota_S1024x1024_d1_w32))
        (ix2 r c)
      = if (i 0).val * 1024 + r.val = (i 1).val * 1024 + c.val then 1#1 else 0#1 := by
    show IntOp.cmpi .eq
        (IntOp.addi (Scalar.muli (BitVec.ofNat 32 (i 0).val) 1024#32) (iota .tc S1024x1024 32 [0] iota_S1024x1024_d0_w32 (ix2 r c)))
        (IntOp.addi (Scalar.muli (BitVec.ofNat 32 (i 1).val) 1024#32) (iota .tc S1024x1024 32 [1] iota_S1024x1024_d1_w32 (ix2 r c))) = _
    rw [iota_single_apply, iota_single_apply]
    exact diag_word (i 0).val (i 1).val r.val c.val h0 h1 r.isLt c.isLt
  rw [hbit, addf_apply, broadcast_apply]
  by_cases h : (i 0).val * 1024 + r.val = (i 1).val * 1024 + c.val
  · rw [if_pos h, if_pos h, select_one]; rfl
  · rw [if_neg h, if_neg h, select_zero]

end Cert.Dist
-- ==== Proof.DistBlock.lean ====
/-
  A stored block of the distance kernel is the matching block of the distance matrix.

  At grid point (i, j) the kernel holds rows  i · 1024 + r  of the projection P as its first block and rows
  j · 1024 + c  as its second.  Whenever an entry (r, c) of the first block's row r and the second block's row c are rows
  R and C of P, the stored value is the squared distance of rows R and C; the ε is added exactly where R = C, which off
  the diagonal grid points (i ≠ j) never happens, because then the two row ranges are disjoint.
-/
import proofs.«179739_j25958782337133_2_alg».proof.Proof.DistPay1

open scoped BigOperators

namespace Cert.Dist

open Idealize.ShloMosaic Idealize.ShloMosaic.ValueIdx
open Cert.KernelIdeal Cert.KernelIdeal.Gen

/-- The block entry without the diagonal term is the squared distance of the two rows of P it was formed from. -/
theorem pay1_eq_dist0 (P : (⟨2, ![8192, 128]⟩ : Shape).Idx → EReal) (v0 v5 : Vec Ideal S1024x128 .bf16)
    (R C : Fin 8192) (r c : Fin 1024) (h0 : ∀ k : Fin 128, v0 (ix2 r k) = P (ix2 R k))
    (h5 : ∀ k : Fin 128, v5 (ix2 c k) = P (ix2 C k)) : k1_pay1 (F := Ideal) v0 v5 (ix2 r c) = dist0 P R C := by
  rw [pay1_apply, dist0_apply]
  simp only [h0, h5]

/-- On a diagonal grid point the stored entry is the distance matrix's entry. -/
theorem pay2_eq_D (P : (⟨2, ![8192, 128]⟩ : Shape).Idx → EReal) (i : grid1.Coords) (v0 v5 : Vec Ideal S1024x128 .bf16)
    (R C : Fin 8192) (r c : Fin 1024) (hR : R.val = (i 0).val * 1024 + r.val) (hC : C.val = (i 1).val * 1024 + c.val)
    (h0 : ∀ k : Fin 128, v0 (ix2 r k) = P (ix2 R k)) (h5 : ∀ k : Fin 128, v5 (ix2 c k) = P (ix2 C k)) :
    k1_pay2 (F := Ideal) i v0 v5 (ix2 r c) = D P (ix2 R C) := by
  rw [pay2_apply, D_apply, pay1_eq_dist0 P v0 v5 R C r c h0 h5, ← hR, ← hC]

/-- Off the diagonal grid points the two row ranges are disjoint, so the stored entry (no ε) is the distance matrix's. -/
theorem pay1_eq_D (P : (⟨2, ![8192, 128]⟩ : Shape).Idx → EReal) (i : grid1.Coords) (v0 v5 : Vec Ideal S1024x128 .bf16)
    (R C : Fin 8192) (r c : Fin 1024) (hij : (i 0).val ≠ (i 1).val)
    (hR : R.val = (i 0).val * 1024 + r.val) (hC : C.val = (i 1).val * 1024 + c.val)
    (h0 : ∀ k : Fin 128, v0 (ix2 r k) = P (ix2 R k)) (h5 : ∀ k : Fin 128, v5 (ix2 c k) = P (ix2 C k)) :
    k1_pay1 (F := Ideal) v0 v5 (ix2 r c) = D P (ix2 R C) := by
  have hne : ¬ R.val = C.val := by
    have := r.isLt; have := c.isLt
    omega
  rw [D_apply, if_neg hne]
  exact pay1_eq_dist0 P v0 v5 R C r c h0 h5

end Cert.Dist
-- ==== Proof.DistFinal1.lean ====
/-
  The distance region, from tiles to the whole matrix.

  Grid point (i, j) of the distance region holds rows 1024·i … of the projection P in its first window, the whole of P in
  its second (of which the body takes rows 1024·j …), and writes back tile (i, j) of the output.  Entry (r, c) of what
  it writes is the distance matrix's entry at (1024·i + r, 1024·j + c): on a diagonal tile the ε is added exactly where
  the global row and column agree, off the diagonal tiles they never do.  The 64 tiles fill the 8192 × 8192 output
  — the tile that holds (R, C) is (R / 1024, C / 1024) — so the output array ends as the distance matrix of P.
-/
import proofs.«179739_j25958782337133_2_alg».proof.Proof.KernelIdeal.Pair
import proofs.«179739_j25958782337133_2_alg».proof.Proof.DistSpec
import proofs.«179739_j25958782337133_2_alg».proof.Proof.DistPay1
import proofs.«179739_j25958782337133_2_alg».proof.Proof.DistBlock
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.Dist

open Idealize.ShloMosaic.ValueIdx
open Cert.KernelIdeal Cert.KernelIdeal.Gen Cert.KernelIdeal.Hand

theorem hz1 : (![0, 0] : Fin 2 → Nat) = fun _ => 0 := funext fun a => by fin_cases a <;> rfl

/-- The printed index maps, the body's row offset and the diagonal test, decided once over the 8 × 8 grid, in terms of the
    point's coordinates (i, j): the first window's block is (i, 0), the second's (0, 0), the output's (i, j); the body
    takes rows from 1024·j; the diagonal branch is taken exactly when i = j. -/
theorem idx_facts1 : ∀ t : Fin cfg1.N,
    win1_0.index t (0 : Fin 2) = (grid1.coords t 0).val ∧ win1_0.index t (1 : Fin 2) = 0
    ∧ win1_1.index t (0 : Fin 2) = 0 ∧ win1_1.index t (1 : Fin 2) = 0
    ∧ win1_2.index t (0 : Fin 2) = (grid1.coords t 0).val ∧ win1_2.index t (1 : Fin 2) = (grid1.coords t 1).val
    ∧ k1_off1 (grid1.coords t) (0 : Fin 2) = (grid1.coords t 1).val * 1024 ∧ k1_off1 (grid1.coords t) (1 : Fin 2) = 0
    ∧ (k1_cond1 (grid1.coords t) = 1#1 ↔ (grid1.coords t 0).val = (grid1.coords t 1).val) :=
  (by decide +kernel : ∀ t : Fin grid1.N, _)

/-- Every tile of the output is some point's. -/
theorem idx_onto1 : ∀ (q0 q1 : Fin 8), ∃ t : Fin cfg1.N, win1_2.index t = ![q0.val, q1.val] :=
  (by decide +kernel : ∀ (q0 q1 : Fin 8), ∃ t : Fin grid1.N, win1_2.index t = ![q0.val, q1.val])

/-- What the body leaves in the output buffer at point (i, j), entry by entry: given that the first buffer holds rows
    1024·i … of P and the second holds P, entry y is the distance matrix's entry at (1024·i + y₀, 1024·j + y₁). -/
theorem out1_2_apply (P : (⟨2, ![8192, 128]⟩ : Shape).Idx → EReal) (i : grid1.Coords)
    (x0 : Vec Ideal S1024x128 .bf16) (x1 : Vec Ideal S8192x128 .bf16)
    (hoff0 : k1_off1 i (0 : Fin 2) = (i 1).val * 1024) (hoff1 : k1_off1 i (1 : Fin 2) = 0)
    (hcond : k1_cond1 i = 1#1 ↔ (i 0).val = (i 1).val)
    (hx0 : ∀ (r : Fin 1024) (k : Fin 128) (R : Fin 8192), R.val = (i 0).val * 1024 + r.val → x0 (ix2 r k) = P (ix2 R k))
    (hx1 : ∀ I : S8192x128.Idx, x1 I = P I)
    (y : S1024x1024.Idx) (I : (⟨2, ![8192, 8192]⟩ : Shape).Idx)
    (hR : (I 0).val = (i 0).val * 1024 + (y 0).val) (hC : (I 1).val = (i 1).val * 1024 + (y 1).val) :
    out1_2 i x0 x1 y = D P I := by
  have h0 : ∀ k : Fin 128, View.ld x0 rP (ix2 (y 0) k) = P (ix2 (I 0) k) := fun k => by
    rw [View.ld_unit_zero (S := S1024x128) hz1]
    exact hx0 (y 0) k (I 0) hR
  have h5 : ∀ k : Fin 128, View.ld x1 (rS i) (ix2 (y 1) k) = P (ix2 (I 1) k) := fun k => by
    show x1 ((rS i).emb (ix2 (y 1) k)) = _
    rw [hx1]
    refine congrArg P (funext fun a => Fin.ext ?_)
    match a with
    | ⟨0, _⟩ =>
      show k1_off1 i (0 : Fin 2) + 1 * (y 1).val = (I 1).val
      rw [hoff0, hC]; omega
    | ⟨1, _⟩ =>
      show k1_off1 i (1 : Fin 2) + 1 * k.val = k.val
      rw [hoff1]; omega
  rw [eq_ix2 I, eq_ix2 y]
  unfold out1_2
  by_cases hc : k1_cond1 i = 1#1
  · rw [if_pos hc]
    unfold outDiag
    rw [View.canon_unit_zero hz1]
    exact pay2_eq_D P i _ _ (I 0) (I 1) (y 0) (y 1) hR hC h0 h5
  · rw [if_neg hc]
    unfold outOff
    rw [View.canon_unit_zero hz1]
    exact pay1_eq_D P i _ _ (I 0) (I 1) (y 0) (y 1) (fun h => hc (hcond.mpr h)) hR hC h0 h5

variable (Vv : (c : Dev nD) → (b : Ref sig .tc) → Buf (Elt Ideal) ((c : Thread nD τ).loc b))

/-- WHAT POINT t WRITES BACK is tile t of the distance matrix of the projection as the region finds it. -/
theorem flushed1_eq (c : Dev nD) (t : Fin cfg1.N) :
    (dat1 (F := Ideal) Vv c).flushed 2 t = ((cfg1.win 2).blk t).view.read (Elt Ideal) (D (Vv c main_v0)) := by
  show (cfg1.win 2).cut (grid1.coords t) ((dat1 (F := Ideal) Vv c).after 2 t) = _
  rw [after1_2]
  obtain ⟨e00, e01, e10, e11, e20, e21, eo0, eo1, hcond⟩ := idx_facts1 t
  funext j
  show out1_2 (grid1.coords t) (iblk1 Vv c 0 t) (iblk1 Vv c 1 t) j = D (Vv c main_v0) (((cfg1.win 2).blk t).view.emb j)
  refine out1_2_apply (Vv c main_v0) (grid1.coords t) _ _ eo0 eo1 hcond ?_ ?_ j _ ?_ ?_
  · intro r k R hR
    show Vv c main_v0 (((cfg1.win 0).blk t).view.emb (ix2 r k)) = Vv c main_v0 (ix2 R k)
    refine congrArg (Vv c main_v0) (funext fun a => Fin.ext ?_)
    match a with
    | ⟨0, _⟩ =>
      show win1_0.index t (0 : Fin 2) * 1024 + 1 * r.val = R.val
      rw [e00, hR]; omega
    | ⟨1, _⟩ =>
      show win1_0.index t (1 : Fin 2) * 128 + 1 * k.val = k.val
      rw [e01]; omega
  · intro I
    show Vv c main_v0 (((cfg1.win 1).blk t).view.emb I) = Vv c main_v0 I
    refine congrArg (Vv c main_v0) (funext fun a => Fin.ext ?_)
    match a with
    | ⟨0, _⟩ =>
      show win1_1.index t (0 : Fin 2) * 8192 + 1 * (I 0).val = (I 0).val
      rw [e10]; omega
    | ⟨1, _⟩ =>
      show win1_1.index t (1 : Fin 2) * 128 + 1 * (I 1).val = (I 1).val
      rw [e11]; omega
  · show win1_2.index t (0 : Fin 2) * 1024 + 1 * (j 0).val = (grid1.coords t 0).val * 1024 + (j 0).val
    rw [e20]; omega
  · show win1_2.index t (1 : Fin 2) * 1024 + 1 * (j 1).val = (grid1.coords t 1).val * 1024 + (j 1).val
    rw [e21]; omega

/-- An index of the output is in point t's tile iff each coordinate is in the tile's range on its axis. -/
theorem mem_blk1 (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v1).slice (win1_2.rect t)).set ↔ _
  rw [View.set_slice_whole, Rect.mem_set_unit]
  exact Iff.rfl

/-- The tiles fill the output: (R, C) is in tile (R / 1024, C / 1024). -/
theorem cover1 (i : S8192x8192.Idx) :
    ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk1]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- THE OUTPUT ARRAY after the region: the distance matrix of the projection as the region finds it. -/
theorem final1 (c : Dev nD) : (dat1 (F := Ideal) Vv c).arrAt 2 cfg1.N = Cert.Dist.D (Vv c main_v0) :=
  (dat1 (F := Ideal) Vv c).arrAt_eq_of_cover 2 (D (Vv c main_v0)) (fun t _ => flushed1_eq Vv c t) cover1

end Cert.Dist

end
-- ==== Proof.lean ====
/-
  The two programs compute one matrix.

  Both take E (8192 × 1024) and W (1024 × 128), form the projected points P = E · W (8192 × 128), and return the matrix
  of squared distances by the expansion  |p_r - p_c|² = |p_r|² + |p_c|² - 2 p_r · p_c,  with one small constant added
  on the diagonal. The kernel computes P in a first pipelined region, 1024 rows at a time, and the distances in a
  second, one 1024 × 1024 tile at a time; on the tiles of the grid's diagonal it adds the constant where the global
  row and column agree, elsewhere it stores the plain tile. The reference forms the whole matrix and adds to every
  entry the constant times the 0/1 indicator of the diagonal. Off the diagonal that addend is 0 · ε = 0, and x + 0 = x
  for every extended real x, so the two results agree entry by entry with no assumption on the inputs' finiteness;
  the sums are the same sums (a block of rows of a matrix product is the product of the block; a lane sum and a host
  reduction are the same finite sum).

  The frames: each region's body runs, at every grid point, from its windows' staging buffers to the same buffers
  with the output's overwritten by one whole-rectangle store (KernelIdeal/Proj.lean, KernelIdeal/Pair.lean, and their
  word-level twins under Kernel/); the program is its two regions in sequence, and the second region's two windows
  on the projected array each hold half of that buffer's share (KernelIdeal/Whole.lean). The run ends with every
  unscoped buffer at a named valuation, which gives the argument arrays as launched and names the result array.

  The values: after the first region the projected array is E · W (DistFinal0.lean), after the second the result is
  the distance matrix of whatever the projected array held (DistFinal1.lean); the reference's last stage is the same
  function of E and W (DistRef.lean over the generated read-back of its run); the specification both meet is in
  DistSpec.lean.
-/
import proofs.«179739_j25958782337133_2_alg».proof.Defs
import proofs.«179739_j25958782337133_2_alg».proof.Proof.Gen.Kernel
import proofs.«179739_j25958782337133_2_alg».proof.Proof.Gen.KernelIdeal
import proofs.«179739_j25958782337133_2_alg».proof.Proof.Gen.ReferenceIdeal
import proofs.«179739_j25958782337133_2_alg».proof.Proof.Gen.ReferenceIdeal.Run
import proofs.«179739_j25958782337133_2_alg».proof.Proof.Gen.ReferenceIdeal.Read
import proofs.«179739_j25958782337133_2_alg».proof.Proof.Gen.Pre_finite_inputs
import proofs.«179739_j25958782337133_2_alg».proof.Proof.Kernel.Whole
import proofs.«179739_j25958782337133_2_alg».proof.Proof.KernelIdeal.Whole
import proofs.«179739_j25958782337133_2_alg».proof.Proof.DistRef
import proofs.«179739_j25958782337133_2_alg».proof.Proof.DistFinal0
import proofs.«179739_j25958782337133_2_alg».proof.Proof.DistFinal1

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories agreeing on E and W both programs end with the distance matrix G E W of the specification. -/
theorem algebraic : Cert.algebraic_KernelIdeal_ReferenceIdeal := by
  intro m ρ m' ρ' _ hagree
  refine ⟨fun c => Cert.Dist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_result (F := Ideal) m ρ)
    rw [Cert.Dist.final1, Cert.KernelIdeal.Hand.V1_projected, Cert.Dist.final0]
    rfl
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v21_eq, Cert.Dist.ref_is_G, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
